-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S10000x128 : Shape := ⟨2, ![10000, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩

abbrev nBuf : Space → Nat
  | .hbm => 29
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S1x128, .f32⟩
  | .hbm, ⟨8, _⟩ => ⟨S100000x128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S128x128, .f32⟩
  | .hbm, ⟨27, _⟩ => ⟨S1x128, .f32⟩
  | .hbm, ⟨28, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S128x128, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S10000x128_S10000x128 : S10000x128.ShapeCasts S10000x128
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .f32 = 32 ∨ (Rect.block (s := S100000x128) S10000x128.size (cc1_transform_4 i) (hinb1_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩

abbrev nBuf : Space → Nat
  | .hbm => 40
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S100000x128, .f32⟩
  | .hbm, ⟨8, _⟩ => ⟨S1x128, .f32⟩
  | .hbm, ⟨9, _⟩ => ⟨S100000x128, .f32⟩
  | .hbm, ⟨10, _⟩ => ⟨S100000x128, .f32⟩
  | .hbm, ⟨11, _⟩ => ⟨S_, .f32⟩
  | .hbm, ⟨12, _⟩ => ⟨S100000x128, .f32⟩
  | .hbm, ⟨13, _⟩ => ⟨S100000x128, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S128x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S100000x128, .f32⟩
  | .hbm, ⟨39, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call1_cst : Ref sig .tc := ⟨.hbm, 36, rfl⟩
abbrev main_call1_v0 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Dense.lean ====
/-
  One dense layer with a rectifier, as a function of its operands: on a table `x` of `n` rows and 128 features, a
  128 × 128 weight matrix `w` (row `j` holds the weights of output feature `j`) and a bias `b`,

      layer x w b (r, j) = max (Σ_k x[r, k] · w[j, k] + b[j]) 0

  on the extended reals. Both kernel bodies compute it on a block of 10000 rows: the weights arrive transposed
  (`wt[k, j] = w[j, k]`), the bias as a one-row table, the product is a matrix product into a zero accumulator, and
  the second body adds the block of node features to the result.
-/
import proofs.«127159_j7335804142018_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Dense

open Cert.KernelIdeal Cert.KernelIdeal.Gen Idealize.ShloMosaic Idealize.ShloMosaic.ValueIdx

/-- The layer, index by index: row `r` of the table against row `j` of the weights, plus the bias of feature `j`,
    rectified. -/
def layer {n : Nat} (x : (⟨2, ![n, 128]⟩ : Shape).Idx → EReal) (w : (⟨2, ![128, 128]⟩ : Shape).Idx → EReal)
    (b : (⟨1, ![128]⟩ : Shape).Idx → EReal) : (⟨2, ![n, 128]⟩ : Shape).Idx → EReal :=
  fun i => max ((∑ k : Fin 128, x (ix2 (⟨(i 0).val, (i 0).isLt⟩ : Fin n) k) * w (ix2 (⟨(i 1).val, (i 1).isLt⟩ : Fin 128) k))
    + b (ix1 (⟨(i 1).val, (i 1).isLt⟩ : Fin 128))) 0

theorem layer_ix2 {n : Nat} (x : (⟨2, ![n, 128]⟩ : Shape).Idx → EReal) (w : (⟨2, ![128, 128]⟩ : Shape).Idx → EReal)
    (b : (⟨1, ![128]⟩ : Shape).Idx → EReal) (r : Fin n) (j : Fin 128) :
    layer x w b (ix2 r j) = max ((∑ k : Fin 128, x (ix2 r k) * w (ix2 j k)) + b (ix1 j)) 0 := rfl

/-- The left operand's index of the product at output `i` and contraction index `q`: row of `i`, -/
theorem lhs_row (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- and the contracted coordinate; -/
theorem lhs_contr (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
/-- the right operand's: the contracted coordinate, -/
theorem rhs_contr (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
/-- and the column of `i`. -/
theorem rhs_col (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The bodies' matrix product at (r, j): into the zero accumulator it is the sum over the one contracted axis of
    the block's row `r` against column `j` of the transposed weights. -/
theorem matmul_at (x0 : FVec Ideal S10000x128 .f32) (wt : FVec Ideal S128x128 .f32) (r : Fin 10000) (j : Fin 128) :
    matmul dot_S10000x128_S128x128_S10000x128_1_0_0_1_n_n none x0 wt (constant (F := Ideal) S10000x128 .f32 0x00000000#32) (ix2 r j)
      = ∑ k : Fin 128, x0 (ix2 r k) * wt (ix2 k j) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 r j) ((ValueIdx.contrEquiv1 dot_S10000x128_S128x128_S10000x128_1_0_0_1_n_n 128 rfl rfl).symm k) = ix2 r k := funext fun a => Fin.ext (by
    match a with
    | ⟨0, _⟩ => exact lhs_row _ _
    | ⟨1, _⟩ => exact (lhs_contr _ _).trans hk)
  have er : dot_S10000x128_S128x128_S10000x128_1_0_0_1_n_n.rhsIdx (ix2 r j) ((ValueIdx.contrEquiv1 dot_S10000x128_S128x128_S10000x128_1_0_0_1_n_n 128 rfl rfl).symm k) = ix2 k j := funext fun a => Fin.ext (by
    match a with
    | ⟨0, _⟩ => exact (rhs_contr _ _).trans hk
    | ⟨1, _⟩ => exact rhs_col _ _)
  rw [el, er]

/-- The one-row bias table spread over the block's rows reads its entry of the feature. -/
theorem bias_at (brow : FVec Ideal S1x128 .f32) (r : Fin 10000) (j : Fin 128) :
    broadcastTo S10000x128 brow broadcasts_S1x128_S10000x128 (ix2 r j) = brow (ix2 (0 : Fin 1) j) :=
  broadcastTo_apply brow broadcasts_S1x128_S10000x128 (ix2 r j) (ix2 (0 : Fin 1) j) fun a => match a with
    | ⟨0, _⟩ => by show (0 : Nat) = if (1 : Nat) = 1 then 0 else _; rw [if_pos rfl]
    | ⟨1, _⟩ => by show j.val = if (128 : Nat) = 1 then 0 else j.val; rw [if_neg (by decide)]

/-- THE FIRST BODY's stored value is the layer of its block: for transposed weights `wt` of `w` and the bias row
    `brow` of `b`. -/
theorem message_pay (x0 : Vec Ideal S10000x128 .f32) (wt : Vec Ideal S128x128 .f32) (brow : Vec Ideal S1x128 .f32)
    (w : (⟨2, ![128, 128]⟩ : Shape).Idx → EReal) (b : (⟨1, ![128]⟩ : Shape).Idx → EReal)
    (hw : ∀ k j : Fin 128, wt (ix2 k j) = w (ix2 j k)) (hb : ∀ j : Fin 128, brow (ix2 (0 : Fin 1) j) = b (ix1 j)) :
    k0_pay1 (F := Ideal) x0 wt brow = layer (n := 10000) x0 w b := by
  funext i
  obtain ⟨r, j, rfl⟩ : ∃ (r : Fin 10000) (j : Fin 128), i = ix2 r j := ⟨i 0, i 1, eq_ix2 i⟩
  rw [layer_ix2]
  unfold k0_pay1
  simp only [shapeCast_self]
  show max (matmul dot_S10000x128_S128x128_S10000x128_1_0_0_1_n_n none x0 wt (constant (F := Ideal) S10000x128 .f32 0x00000000#32) (ix2 r j)
      + broadcastTo S10000x128 brow broadcasts_S1x128_S10000x128 (ix2 r j)) (Ideal.ofBits .f32 0x00000000#32) = _
  rw [matmul_at, bias_at, Ideal.ofBits_zero_f32, hb]
  simp only [hw]

/-- THE SECOND BODY's stored value is the layer of its first block plus its second block, entry by entry. -/
theorem update_pay (a0 : Vec Ideal S10000x128 .f32) (wt : Vec Ideal S128x128 .f32) (brow : Vec Ideal S1x128 .f32) (x0 : Vec Ideal S10000x128 .f32)
    (w : (⟨2, ![128, 128]⟩ : Shape).Idx → EReal) (b : (⟨1, ![128]⟩ : Shape).Idx → EReal)
    (hw : ∀ k j : Fin 128, wt (ix2 k j) = w (ix2 j k)) (hb : ∀ j : Fin 128, brow (ix2 (0 : Fin 1) j) = b (ix1 j)) :
    k1_pay1 (F := Ideal) a0 wt brow x0 = fun i => layer (n := 10000) a0 w b i + x0 i := by
  funext i
  obtain ⟨r, j, rfl⟩ : ∃ (r : Fin 10000) (j : Fin 128), i = ix2 r j := ⟨i 0, i 1, eq_ix2 i⟩
  show _ = layer (n := 10000) a0 w b (ix2 r j) + x0 (ix2 r j)
  rw [layer_ix2]
  unfold k1_pay1
  simp only [shapeCast_self]
  show max (matmul dot_S10000x128_S128x128_S10000x128_1_0_0_1_n_n none a0 wt (constant (F := Ideal) S10000x128 .f32 0x00000000#32) (ix2 r j)
      + broadcastTo S10000x128 brow broadcasts_S1x128_S10000x128 (ix2 r j)) (Ideal.ofBits .f32 0x00000000#32) + x0 (ix2 r j) = _
  rw [matmul_at, bias_at, Ideal.ofBits_zero_f32, hb]
  simp only [hw]

end Cert.KernelIdeal.Dense

end
-- ==== Proof.Messages.lean ====
/-
  The first region (the message layer): its output array after the ten grid points.
  Point `t` reads rows [10000·t, 10000·t + 10000) of the node table, the whole transposed weight matrix and the whole
  bias row, and writes back the layer of that block. A row of the layer depends only on the same row of the table, so
  each write-back is that block of the layer of the WHOLE table, and the ten blocks tile the array.
-/
import proofs.«127159_j7335804142018_1_alg».proof.Proof.Gen.KernelIdeal.Frame
import proofs.«127159_j7335804142018_1_alg».proof.Proof.Dense

set_option maxRecDepth 16384

noncomputable section

open scoped BigOperators

namespace Cert.KernelIdeal.Messages

open Cert.KernelIdeal Cert.KernelIdeal.Gen Cert.KernelIdeal.Dense Idealize.ShloMosaic Idealize.ShloMosaic.TcCoe
  Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the table's block moves with the output's along the rows, the weights and
    the bias stay at their one block, and the output's row-block number is below ten. -/
theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 9 ∧ win0_3.index t (1 : Fin 2) = 0 :=
  (by decide +kernel : ∀ t : Fin grid0.N, _)

/-- Every row-block of the output is some point's. -/
theorem index_onto : ∀ q : Fin 10, ∃ t : Fin cfg0.N, win0_3.index t = ![q.val, 0] :=
  (by decide +kernel : ∀ q : Fin 10, ∃ t : Fin grid0.N, win0_3.index t = ![q.val, 0])

/-- Row `r` of the table's block at point `t` is row 10000·(block number) + r of the table. -/
theorem table_block (c : Dev nD) (t : Fin cfg0.N) (r : Fin 10000) (k : Fin 128) (R : Fin 100000)
    (hR : R.val = win0_3.index t (0 : Fin 2) * 10000 + r.val) :
    iblk0 V c 0 t (ix2 r k) = V c main_arg0 (ix2 R k) := by
  obtain ⟨e0, e1, -⟩ := index_facts t
  show V c main_arg0 (((cfg0.win 0).blk t).view.emb (ix2 r k)) = V c main_arg0 (ix2 R k)
  refine congrArg (V c main_arg0) (funext fun a => Fin.ext ?_)
  match a with
  | ⟨0, _⟩ => show win0_0.index t (0 : Fin 2) * 10000 + 1 * r.val = R.val; omega
  | ⟨1, _⟩ => show win0_0.index t (1 : Fin 2) * 128 + 1 * k.val = k.val; omega

/-- The weights' block is the whole matrix. -/
theorem weight_block (c : Dev nD) (t : Fin cfg0.N) (k j : Fin 128) : iblk0 V c 1 t (ix2 k j) = V c main_v0 (ix2 k j) := by
  obtain ⟨-, -, e2, e3, -⟩ := index_facts t
  show V c main_v0 (((cfg0.win 1).blk t).view.emb (ix2 k j)) = V c main_v0 (ix2 k j)
  refine congrArg (V c main_v0) (funext fun a => Fin.ext ?_)
  match a with
  | ⟨0, _⟩ => show win0_1.index t (0 : Fin 2) * 128 + 1 * k.val = k.val; omega
  | ⟨1, _⟩ => show win0_1.index t (1 : Fin 2) * 128 + 1 * j.val = j.val; omega

/-- The bias' block is the whole row. -/
theorem bias_block (c : Dev nD) (t : Fin cfg0.N) (j : Fin 128) : iblk0 V c 2 t (ix2 (0 : Fin 1) j) = V c main_v1 (ix2 (0 : Fin 1) j) := by
  obtain ⟨-, -, -, -, e4, e5, -⟩ := index_facts t
  show V c main_v1 (((cfg0.win 2).blk t).view.emb (ix2 (0 : Fin 1) j)) = V c main_v1 (ix2 (0 : Fin 1) j)
  refine congrArg (V c main_v1) (funext fun a => Fin.ext ?_)
  match a with
  | ⟨0, _⟩ => show win0_2.index t (0 : Fin 2) * 1 + 1 * 0 = 0; omega
  | ⟨1, _⟩ => show win0_2.index t (1 : Fin 2) * 128 + 1 * j.val = j.val; omega

/-- WHAT POINT `t` WRITES BACK is block `t` of the layer of the whole table as the region finds it — for weights
    `w` whose transpose the region finds in its second operand, and a bias `b` it finds as a one-row table. -/
theorem flushed_eq (c : Dev nD) (t : Fin cfg0.N)
    (w : (⟨2, ![128, 128]⟩ : Shape).Idx → EReal) (b : (⟨1, ![128]⟩ : Shape).Idx → EReal)
    (hw : ∀ k j : Fin 128, V c main_v0 (ix2 k j) = w (ix2 j k)) (hb : ∀ j : Fin 128, V c main_v1 (ix2 (0 : Fin 1) j) = b (ix1 j)) :
    (dat0 V c).flushed 3 t = ((cfg0.win 3).blk t).view.read (Elt Ideal) (layer (n := 100000) (V c main_arg0) w b) := by
  show (cfg0.win 3).cut (grid0.coords t) ((dat0 V c).after 3 t) = _
  rw [after0_3]
  unfold out0_3
  rw [View.canon_unit_zero origin]
  simp only [View.ld_unit_zero (S := S10000x128) origin, View.ld_unit_zero (S := S128x128) origin, View.ld_unit_zero (S := S1x128) origin]
  rw [message_pay (iblk0 V c 0 t) (iblk0 V c 1 t) (iblk0 V c 2 t) w b
    (fun k j => (weight_block V c t k j).trans (hw k j)) (fun j => (bias_block V c t j).trans (hb j))]
  obtain ⟨-, -, -, -, -, -, e6, e7⟩ := index_facts t
  funext y
  obtain ⟨r, j, rfl⟩ : ∃ (r : Fin 10000) (j : Fin 128), y = ix2 r j := ⟨y 0, y 1, eq_ix2 y⟩
  have hRlt : win0_3.index t (0 : Fin 2) * 10000 + r.val < 100000 := by have := r.isLt; omega
  have hemb : ((cfg0.win 3).blk t).view.emb (ix2 r j) = ix2 (⟨win0_3.index t (0 : Fin 2) * 10000 + r.val, hRlt⟩ : Fin 100000) j := by
    funext a; apply Fin.ext
    match a with
    | ⟨0, _⟩ => show win0_3.index t (0 : Fin 2) * 10000 + 1 * r.val = win0_3.index t (0 : Fin 2) * 10000 + r.val; omega
    | ⟨1, _⟩ => show win0_3.index t (1 : Fin 2) * 128 + 1 * j.val = j.val; omega
  show layer (n := 10000) (iblk0 V c 0 t) w b (ix2 r j) = layer (n := 100000) (V c main_arg0) w b (((cfg0.win 3).blk t).view.emb (ix2 r j))
  rw [hemb, layer_ix2, layer_ix2]
  refine congrArg (fun s => max (s + b (ix1 j)) 0) (Finset.sum_congr rfl fun k _ => ?_)
  rw [table_block V c t r k ⟨_, hRlt⟩ rfl]

/-- An index of the array is in point `t`'s block iff each coordinate is in the block's range on its axis. -/
theorem mem_block (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v2).slice (win0_3.rect t)).set ↔ _
  rw [View.set_slice_whole, Rect.mem_set_unit]
  exact Iff.rfl

/-- The ten blocks tile the array: row R lies in the block of the point whose block number is R / 10000. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := index_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- THE MESSAGE ARRAY after the region: the layer of the node table as the region finds it. -/
theorem final (c : Dev nD) (w : (⟨2, ![128, 128]⟩ : Shape).Idx → EReal) (b : (⟨1, ![128]⟩ : Shape).Idx → EReal)
    (hw : ∀ k j : Fin 128, V c main_v0 (ix2 k j) = w (ix2 j k)) (hb : ∀ j : Fin 128, V c main_v1 (ix2 (0 : Fin 1) j) = b (ix1 j)) :
    (dat0 V c).arrAt 3 cfg0.N = layer (n := 100000) (V c main_arg0) w b :=
  (dat0 V c).arrAt_eq_of_cover 3 _ (fun t _ => flushed_eq V c t w b hw hb) cover

end Cert.KernelIdeal.Messages

end
-- ==== Proof.Update.lean ====
/-
  The second region (the update layer with its residual): its output array after the ten grid points.
  Point `t` reads rows [10000·t, 10000·t + 10000) of the aggregated table and of the node table, the whole transposed
  weight matrix and the whole bias row, and writes back the layer of the aggregated block plus the node block. Row by
  row this is the layer of the WHOLE aggregated table plus the node table, and the ten blocks tile the array.
-/
import proofs.«127159_j7335804142018_1_alg».proof.Proof.Gen.KernelIdeal.Frame
import proofs.«127159_j7335804142018_1_alg».proof.Proof.Dense

set_option maxRecDepth 16384

noncomputable section

open scoped BigOperators

namespace Cert.KernelIdeal.Update

open Cert.KernelIdeal Cert.KernelIdeal.Gen Cert.KernelIdeal.Dense Idealize.ShloMosaic Idealize.ShloMosaic.TcCoe
  Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the aggregated table's and the node table's blocks move with the output's
    along the rows, the weights and the bias stay at their one block, and the output's row-block number is below ten. -/
theorem index_facts : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) ≤ 9 ∧ win1_4.index t (1 : Fin 2) = 0 :=
  (by decide +kernel : ∀ t : Fin grid1.N, _)

/-- Every row-block of the output is some point's. -/
theorem index_onto : ∀ q : Fin 10, ∃ t : Fin cfg1.N, win1_4.index t = ![q.val, 0] :=
  (by decide +kernel : ∀ q : Fin 10, ∃ t : Fin grid1.N, win1_4.index t = ![q.val, 0])

/-- Row `r` of the aggregated table's block at point `t` is row 10000·(block number) + r of that table. -/
theorem agg_block (c : Dev nD) (t : Fin cfg1.N) (r : Fin 10000) (k : Fin 128) (R : Fin 100000)
    (hR : R.val = win1_4.index t (0 : Fin 2) * 10000 + r.val) :
    iblk1 V c 0 t (ix2 r k) = V c main_v16 (ix2 R k) := by
  obtain ⟨e0, e1, -⟩ := index_facts t
  show V c main_v16 (((cfg1.win 0).blk t).view.emb (ix2 r k)) = V c main_v16 (ix2 R k)
  refine congrArg (V c main_v16) (funext fun a => Fin.ext ?_)
  match a with
  | ⟨0, _⟩ => show win1_0.index t (0 : Fin 2) * 10000 + 1 * r.val = R.val; omega
  | ⟨1, _⟩ => show win1_0.index t (1 : Fin 2) * 128 + 1 * k.val = k.val; omega

/-- The same for the node table's block. -/
theorem node_block (c : Dev nD) (t : Fin cfg1.N) (r : Fin 10000) (k : Fin 128) (R : Fin 100000)
    (hR : R.val = win1_4.index t (0 : Fin 2) * 10000 + r.val) :
    iblk1 V c 1 t (ix2 r k) = V c main_arg0 (ix2 R k) := by
  obtain ⟨-, -, e2, e3, -⟩ := index_facts t
  show V c main_arg0 (((cfg1.win 1).blk t).view.emb (ix2 r k)) = V c main_arg0 (ix2 R k)
  refine congrArg (V c main_arg0) (funext fun a => Fin.ext ?_)
  match a with
  | ⟨0, _⟩ => show win1_1.index t (0 : Fin 2) * 10000 + 1 * r.val = R.val; omega
  | ⟨1, _⟩ => show win1_1.index t (1 : Fin 2) * 128 + 1 * k.val = k.val; omega

/-- The weights' block is the whole matrix. -/
theorem weight_block (c : Dev nD) (t : Fin cfg1.N) (k j : Fin 128) : iblk1 V c 2 t (ix2 k j) = V c main_v17 (ix2 k j) := by
  obtain ⟨-, -, -, -, e4, e5, -⟩ := index_facts t
  show V c main_v17 (((cfg1.win 2).blk t).view.emb (ix2 k j)) = V c main_v17 (ix2 k j)
  refine congrArg (V c main_v17) (funext fun a => Fin.ext ?_)
  match a with
  | ⟨0, _⟩ => show win1_2.index t (0 : Fin 2) * 128 + 1 * k.val = k.val; omega
  | ⟨1, _⟩ => show win1_2.index t (1 : Fin 2) * 128 + 1 * j.val = j.val; omega

/-- The bias' block is the whole row. -/
theorem bias_block (c : Dev nD) (t : Fin cfg1.N) (j : Fin 128) : iblk1 V c 3 t (ix2 (0 : Fin 1) j) = V c main_v18 (ix2 (0 : Fin 1) j) := by
  obtain ⟨-, -, -, -, -, -, e6, e7, -⟩ := index_facts t
  show V c main_v18 (((cfg1.win 3).blk t).view.emb (ix2 (0 : Fin 1) j)) = V c main_v18 (ix2 (0 : Fin 1) j)
  refine congrArg (V c main_v18) (funext fun a => Fin.ext ?_)
  match a with
  | ⟨0, _⟩ => show win1_3.index t (0 : Fin 2) * 1 + 1 * 0 = 0; omega
  | ⟨1, _⟩ => show win1_3.index t (1 : Fin 2) * 128 + 1 * j.val = j.val; omega

/-- WHAT POINT `t` WRITES BACK is block `t` of "the layer of the whole aggregated table, plus the node table", both
    as the region finds them — for weights `w` whose transpose the region finds in its third operand, and a bias `b`
    it finds as a one-row table. -/
theorem flushed_eq (c : Dev nD) (t : Fin cfg1.N)
    (w : (⟨2, ![128, 128]⟩ : Shape).Idx → EReal) (b : (⟨1, ![128]⟩ : Shape).Idx → EReal)
    (hw : ∀ k j : Fin 128, V c main_v17 (ix2 k j) = w (ix2 j k)) (hb : ∀ j : Fin 128, V c main_v18 (ix2 (0 : Fin 1) j) = b (ix1 j)) :
    (dat1 V c).flushed 4 t = ((cfg1.win 4).blk t).view.read (Elt Ideal)
      (fun i => layer (n := 100000) (V c main_v16) w b i + V c main_arg0 i) := by
  show (cfg1.win 4).cut (grid1.coords t) ((dat1 V c).after 4 t) = _
  rw [after1_4]
  unfold out1_4
  rw [View.canon_unit_zero origin]
  simp only [View.ld_unit_zero (S := S10000x128) origin, View.ld_unit_zero (S := S128x128) origin, View.ld_unit_zero (S := S1x128) origin]
  rw [update_pay (iblk1 V c 0 t) (iblk1 V c 2 t) (iblk1 V c 3 t) (iblk1 V c 1 t) w b
    (fun k j => (weight_block V c t k j).trans (hw k j)) (fun j => (bias_block V c t j).trans (hb j))]
  obtain ⟨-, -, -, -, -, -, -, -, e8, e9⟩ := index_facts t
  funext y
  obtain ⟨r, j, rfl⟩ : ∃ (r : Fin 10000) (j : Fin 128), y = ix2 r j := ⟨y 0, y 1, eq_ix2 y⟩
  have hRlt : win1_4.index t (0 : Fin 2) * 10000 + r.val < 100000 := by have := r.isLt; omega
  have hemb : ((cfg1.win 4).blk t).view.emb (ix2 r j) = ix2 (⟨win1_4.index t (0 : Fin 2) * 10000 + r.val, hRlt⟩ : Fin 100000) j := by
    funext a; apply Fin.ext
    match a with
    | ⟨0, _⟩ => show win1_4.index t (0 : Fin 2) * 10000 + 1 * r.val = win1_4.index t (0 : Fin 2) * 10000 + r.val; omega
    | ⟨1, _⟩ => show win1_4.index t (1 : Fin 2) * 128 + 1 * j.val = j.val; omega
  show layer (n := 10000) (iblk1 V c 0 t) w b (ix2 r j) + iblk1 V c 1 t (ix2 r j)
    = layer (n := 100000) (V c main_v16) w b (((cfg1.win 4).blk t).view.emb (ix2 r j)) + V c main_arg0 (((cfg1.win 4).blk t).view.emb (ix2 r j))
  rw [hemb, layer_ix2, layer_ix2, node_block V c t r j ⟨_, hRlt⟩ rfl]
  refine congrArg (fun s => max (s + b (ix1 j)) 0 + V c main_arg0 (ix2 (⟨win1_4.index t (0 : Fin 2) * 10000 + r.val, hRlt⟩ : Fin 100000) j))
    (Finset.sum_congr rfl fun k _ => ?_)
  rw [agg_block V c t r k ⟨_, hRlt⟩ rfl]

/-- An index of the array is in point `t`'s block iff each coordinate is in the block's range on its axis. -/
theorem mem_block (t : Fin cfg1.N) (i : S100000x128.Idx) :
    i ∈ ((cfg1.win 4).blk t).view.set ↔ ∀ a : Fin 2, win1_4.index t a * S10000x128.size a ≤ (i a).val ∧ (i a).val < win1_4.index t a * S10000x128.size a + S10000x128.size a := by
  show i ∈ ((View.whole main_v19).slice (win1_4.rect t)).set ↔ _
  rw [View.set_slice_whole, Rect.mem_set_unit]
  exact Iff.rfl

/-- The ten blocks tile the array: row R lies in the block of the point whose block number is R / 10000. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := index_onto ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_block]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 128 ≤ (i 1).val ∧ (i 1).val < win1_4.index t (1 : Fin 2) * 128 + 128; omega

/-- THE RESULT ARRAY after the region: the layer of the aggregated table plus the node table, as the region finds them. -/
theorem final (c : Dev nD) (w : (⟨2, ![128, 128]⟩ : Shape).Idx → EReal) (b : (⟨1, ![128]⟩ : Shape).Idx → EReal)
    (hw : ∀ k j : Fin 128, V c main_v17 (ix2 k j) = w (ix2 j k)) (hb : ∀ j : Fin 128, V c main_v18 (ix2 (0 : Fin 1) j) = b (ix1 j)) :
    (dat1 V c).arrAt 4 cfg1.N = fun i => layer (n := 100000) (V c main_v16) w b i + V c main_arg0 i :=
  (dat1 V c).arrAt_eq_of_cover 4 _ (fun t _ => flushed_eq V c t w b hw hb) cover

end Cert.KernelIdeal.Update

end
-- ==== Proof.RefLayers.lean ====
/-
  The reference, stage by stage, in the vocabulary of `Dense.layer`:
    messages   = layer x W_msg b_msg                      (a product with the transposed weights, the bias spread over
                                                           the rows, the maximum with the zero table),
    aggregated = aggregate messages edges                 (rows gathered by source node and summed into their
                                                           destination node's row: never opened here),
    result     = layer aggregated W_upd b_upd + x.
-/
import proofs.«127159_j7335804142018_1_alg».proof.Proof.Gen.ReferenceIdeal.Read
import proofs.«127159_j7335804142018_1_alg».proof.Proof.Dense

noncomputable section

open scoped BigOperators

namespace Cert.ReferenceIdeal.Layers

open Cert.ReferenceIdeal Cert.ReferenceIdeal.Gen Cert.ReferenceIdeal.Read Cert.KernelIdeal.Dense Idealize.ShloMosaic
  Idealize.ShloMosaic.ValueIdx

/-- The aggregation as ONE function of the message table and the edge list: the rows the (wrapped) source indices
    select, added into the zero table at the destination indices. -/
def aggregate (msgs : (⟨S100000x128, .f32⟩ : BufTy).Contents (Elt Ideal)) (e : (⟨S2x1600000, .i32⟩ : BufTy).Contents (Elt Ideal)) :
    (⟨S100000x128, .f32⟩ : BufTy).Contents (Elt Ideal) :=
  Host.scatterAdd (F := Ideal) (φ := .f32) scatter_S100000x128_S1600000x1_S1600000x128_1_0_0_1 (val_main_v17 (F := Ideal)) (val_main_v18 (F := Ideal) e)
    (Host.gather gather_S100000x128_S1600000x1_S1600000x128_1_0_n_n_0_1_1128 msgs (val_main_v15 (F := Ideal) e))

/-- The reference's aggregated table is that function of its message table. -/
theorem aggregated_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) :
    val_main_v19 (F := Ideal) x0 x1 x2 x3 = aggregate (val_main_v5 (F := Ideal) x0 x2 x3) x1 := rfl

/-- The index functions of the generated reads, at an index given by its coordinates. -/
theorem lidx_ix2 (r : Fin 100000) (j k : Fin 128) : lidx_main_v1 (ix2 r j) k = ix2 r k :=
  funext fun a => Fin.ext (by match a with | ⟨0, _⟩ => rfl | ⟨1, _⟩ => rfl)
theorem ridx_ix2 (r : Fin 100000) (j k : Fin 128) : idx_main_v0 (ridx_main_v1 (ix2 r j) k) = ix2 j k :=
  funext fun a => Fin.ext (by match a with | ⟨0, _⟩ => rfl | ⟨1, _⟩ => rfl)
theorem bidx_ix2 (r : Fin 100000) (j : Fin 128) : idx_main_v2 (idx_main_v3 (ix2 r j)) = ix1 j :=
  funext fun a => Fin.ext (by match a with | ⟨0, _⟩ => rfl)
theorem lidx'_ix2 (r : Fin 100000) (j k : Fin 128) : lidx_main_v21 (ix2 r j) k = ix2 r k :=
  funext fun a => Fin.ext (by match a with | ⟨0, _⟩ => rfl | ⟨1, _⟩ => rfl)
theorem ridx'_ix2 (r : Fin 100000) (j k : Fin 128) : idx_main_v20 (ridx_main_v21 (ix2 r j) k) = ix2 j k :=
  funext fun a => Fin.ext (by match a with | ⟨0, _⟩ => rfl | ⟨1, _⟩ => rfl)
theorem bidx'_ix2 (r : Fin 100000) (j : Fin 128) : idx_main_v22 (idx_main_v23 (ix2 r j)) = ix1 j :=
  funext fun a => Fin.ext (by match a with | ⟨0, _⟩ => rfl)

/-- THE REFERENCE'S MESSAGE TABLE is the layer of the node table. -/
theorem messages_eq (x0 : (⟨S100000x128, .f32⟩ : BufTy).Contents (Elt Ideal)) (x2 : (⟨S128x128, .f32⟩ : BufTy).Contents (Elt Ideal))
    (x3 : (⟨S128, .f32⟩ : BufTy).Contents (Elt Ideal)) :
    val_main_v5 (F := Ideal) x0 x2 x3 = layer (n := 100000) x0 x2 x3 := by
  funext i
  obtain ⟨r, j, rfl⟩ : ∃ (r : Fin 100000) (j : Fin 128), i = ix2 r j := ⟨i 0, i 1, eq_ix2 i⟩
  rw [layer_ix2, val_main_v5_apply, val_main_v4_apply, val_main_v1_apply, val_main_v3_apply, val_main_v2_apply,
    val_main_call0_v0_apply, val_main_call0_cst_apply]
  simp only [val_main_v0_apply, lidx_ix2, ridx_ix2, bidx_ix2]
  show max ((∑ k : Fin 128, x0 (ix2 r k) * x2 (ix2 j k)) + x3 (ix1 j)) (Ideal.ofBits .f32 0x00000000#32) = _
  rw [Ideal.ofBits_zero_f32]

/-- THE REFERENCE'S RESULT is the layer of its aggregated table plus the node table. -/
theorem result_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v26 (F := Ideal) x0 x1 x2 x3 x4 x5
      = fun i => layer (n := 100000) (aggregate (layer (n := 100000) x0 x2 x3) x1) x4 x5 i + x0 i := by
  funext i
  obtain ⟨r, j, rfl⟩ : ∃ (r : Fin 100000) (j : Fin 128), i = ix2 r j := ⟨i 0, i 1, eq_ix2 i⟩
  show _ = layer (n := 100000) (aggregate (layer (n := 100000) x0 x2 x3) x1) x4 x5 (ix2 r j) + x0 (ix2 r j)
  rw [layer_ix2, val_main_v26_apply, val_main_v25_apply, val_main_v24_apply, val_main_v21_apply, val_main_v23_apply, val_main_v22_apply,
    val_main_call1_v0_apply, val_main_call1_cst_apply, aggregated_eq, messages_eq]
  simp only [val_main_v20_apply, lidx'_ix2, ridx'_ix2, bidx'_ix2]
  show max ((∑ k : Fin 128, aggregate (layer (n := 100000) x0 x2 x3) x1 (ix2 r k) * x4 (ix2 j k)) + x5 (ix1 j)) (Ideal.ofBits .f32 0x00000000#32) + x0 (ix2 r j) = _
  rw [Ideal.ofBits_zero_f32]

end Cert.ReferenceIdeal.Layers

end
-- ==== Proof.KernelValue.lean ====
/-
  The idealized kernel's result array as one function of the launch arrays.
  @main is four stretches: host operations (the transposed message weights, the bias as a one-row table), the
  message region, host operations (the edge list's two rows, the source indices wrapped, the gather, the scatter-add
  into the zero table, the transposed update weights, the bias row), the update region. Reading the buffer contents
  at each boundary back to the launch memory:
      messages   = layer x W_msg b_msg
      aggregated = aggregate messages edges
      result     = layer aggregated W_upd b_upd + x.
-/
import proofs.«127159_j7335804142018_1_alg».proof.Proof.Messages
import proofs.«127159_j7335804142018_1_alg».proof.Proof.Update
import proofs.«127159_j7335804142018_1_alg».proof.Proof.RefLayers
import Idealize.ShloMosaic.Lib.StableHlo.Run
import Idealize.ShloMosaic.Lib.ValueLayout

set_option maxRecDepth 16384

noncomputable section

open scoped BigOperators

namespace Cert.KernelIdeal.Flow

open Cert.KernelIdeal Cert.KernelIdeal.Gen Cert.KernelIdeal.Dense Idealize.ShloMosaic Idealize.ShloMosaic.TcCoe
  Idealize.ShloMosaic.ValueIdx Idealize.SL.Sem Idealize.ShloMosaic.StableHlo
open Cert.ReferenceIdeal.Layers (aggregate)

variable (m : (ℓ : Loc nD τ sig) → Buf (Elt Ideal) ℓ) (ρ : Dev nD → PrngReg)

/-! ## The first region's entry contents -/

/-- The node table is as launched. -/
theorem entry0_nodes (c : Dev nD) : V1 m ρ c main_arg0 = m ((c : Thread nD τ).loc main_arg0) := by
  show StableHlo.after hostOps0 (W0 m ρ c) (Proc.devRef .tc main_arg0) = _
  after_results

/-- The second operand is the transpose of the launched message weights. -/
theorem entry0_weights (c : Dev nD) (k j : Fin 128) :
    V1 m ρ c main_v0 (ix2 k j) = m ((c : Thread nD τ).loc main_arg2) (ix2 j k) := by
  have e : V1 m ρ c main_v0 = transpose S128x128 [1, 0] (m ((c : Thread nD τ).loc main_arg2)) transposes_S128x128_S128x128_1_0 := by
    show StableHlo.after hostOps0 (W0 m ρ c) (Proc.devRef .tc main_v0) = _
    after_results
  rw [e]
  exact transpose_ix2_apply _ _ k j

/-- The third operand is the launched message bias as a one-row table. -/
theorem entry0_bias (c : Dev nD) (j : Fin 128) :
    V1 m ρ c main_v1 (ix2 (0 : Fin 1) j) = m ((c : Thread nD τ).loc main_arg3) (ix1 j) := by
  have e : V1 m ρ c main_v1 = shapeCast S1x128 (m ((c : Thread nD τ).loc main_arg3)) shapeCasts_S128_S1x128 := by
    show StableHlo.after hostOps0 (W0 m ρ c) (Proc.devRef .tc main_v1) = _
    after_results; rfl
  rw [e]
  exact shapeCast_a_1a_apply _ _ (0 : Fin 1) j

/-! ## Between the regions -/

/-- THE MESSAGE TABLE the first region leaves: the layer of the launched node table. -/
theorem messages (c : Dev nD) :
    W2 m ρ c (Proc.devRef .tc main_v2) = layer (n := 100000) (m ((c : Thread nD τ).loc main_arg0)) (m ((c : Thread nD τ).loc main_arg2)) (m ((c : Thread nD τ).loc main_arg3)) :=
  (W2_arr m ρ c 3).trans ((Messages.final (V1 m ρ) c _ _ (entry0_weights m ρ c) (entry0_bias m ρ c)).trans
    (congrArg (fun x => layer (n := 100000) x _ _) (entry0_nodes m ρ c)))

/-- Neither the first host stretch nor the first region writes the node table, -/
theorem mid_nodes (c : Dev nD) : W2 m ρ c (Proc.devRef .tc main_arg0) = m ((c : Thread nD τ).loc main_arg0) :=
  (W2_arr m ρ c 0).trans ((((dat0 (V1 m ρ) c).arrAt_in 0 rfl _).trans (A_eq0 (V1 m ρ) c 0)).trans (entry0_nodes m ρ c))
/-- the edge list, -/
theorem mid_edges (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)
/-- the update weights, -/
theorem mid_weights (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)
/-- or the update bias. -/
theorem mid_bias (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)

/-! ## The second region's entry contents -/

/-- Its first operand is the aggregation of the message table along the launched edge list: the second host stretch
    applies to them the very operations the reference applies. -/
theorem entry1_aggregated (c : Dev nD) :
    V3 m ρ c main_v16 = aggregate (W2 m ρ c (Proc.devRef .tc main_v2)) (m ((c : Thread nD τ).loc main_arg1)) := by
  show StableHlo.after hostOps1 (W2 m ρ c) (Proc.devRef .tc main_v16) = _
  after_results
  rw [mid_edges]
  rfl

/-- The node table is as launched. -/
theorem entry1_nodes (c : Dev nD) : V3 m ρ c main_arg0 = m ((c : Thread nD τ).loc main_arg0) := by
  show StableHlo.after hostOps1 (W2 m ρ c) (Proc.devRef .tc main_arg0) = _
  after_results
  exact mid_nodes m ρ c

/-- The third operand is the transpose of the launched update weights. -/
theorem entry1_weights (c : Dev nD) (k j : Fin 128) :
    V3 m ρ c main_v17 (ix2 k j) = m ((c : Thread nD τ).loc main_arg4) (ix2 j k) := by
  have e : V3 m ρ c main_v17 = transpose S128x128 [1, 0] (m ((c : Thread nD τ).loc main_arg4)) transposes_S128x128_S128x128_1_0 := by
    show StableHlo.after hostOps1 (W2 m ρ c) (Proc.devRef .tc main_v17) = _
    after_results
    rw [mid_weights]
  rw [e]
  exact transpose_ix2_apply _ _ k j

/-- The fourth operand is the launched update bias as a one-row table. -/
theorem entry1_bias (c : Dev nD) (j : Fin 128) :
    V3 m ρ c main_v18 (ix2 (0 : Fin 1) j) = m ((c : Thread nD τ).loc main_arg5) (ix1 j) := by
  have e : V3 m ρ c main_v18 = shapeCast S1x128 (m ((c : Thread nD τ).loc main_arg5)) shapeCasts_S128_S1x128 := by
    show StableHlo.after hostOps1 (W2 m ρ c) (Proc.devRef .tc main_v18) = _
    after_results
    rw [mid_bias]
    rfl
  rw [e]
  exact shapeCast_a_1a_apply _ _ (0 : Fin 1) j

/-! ## The result -/

/-- What the kernel computes, as one function of the launch arrays. -/
def value (c : Dev nD) : (⟨S100000x128, .f32⟩ : BufTy).Contents (Elt Ideal) := fun i =>
  layer (n := 100000)
    (aggregate (layer (n := 100000) (m ((c : Thread nD τ).loc main_arg0)) (m ((c : Thread nD τ).loc main_arg2)) (m ((c : Thread nD τ).loc main_arg3)))
      (m ((c : Thread nD τ).loc main_arg1)))
    (m ((c : Thread nD τ).loc main_arg4)) (m ((c : Thread nD τ).loc main_arg5)) i
  + m ((c : Thread nD τ).loc main_arg0) i

/-- THE RESULT ARRAY the second region leaves. -/
theorem result (c : Dev nD) : W4 m ρ c (Proc.devRef .tc main_v19) = value m c := by
  refine (W4_arr m ρ c 4).trans ((Update.final (V3 m ρ) c _ _ (entry1_weights m ρ c) (entry1_bias m ρ c)).trans ?_)
  rw [entry1_aggregated, entry1_nodes, messages]
  rfl

end Cert.KernelIdeal.Flow

end
-- ==== Proof.KernelRun.lean ====
/-
  The idealized kernel's run, with its result named: every weakly fair execution of @main terminates without a
  fault, the result buffer ends at the contents of the last segment boundary (what the update region's write-backs
  leave), and the six argument arrays end as launched. @main runs as four segments — a host stretch, the message
  region, a host stretch, the update region — each entered from the buffer contents the one before leaves; the last
  thread state holds every unscoped buffer at the last boundary's contents, and the final memory is read against it
  at the result buffer and at each argument.
-/
import proofs.«127159_j7335804142018_1_alg».proof.Proof.Gen.KernelIdeal.Frame

set_option maxRecDepth 16384

noncomputable section

namespace Cert.KernelIdeal.Flow

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments unchanged. -/
theorem run_named : θ_run defs (onTc (τ := τ) (main (F := F))) ⟨m, fun _ => 0, ρ⟩ (fun r => ∀ c : Dev nD,
      r.2.mem ((c.tc : Thread nD τ).loc main_v19) = W4 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v19 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Flow

end
-- ==== Proof.lean ====
/-
  One message-passing layer on a graph of 100000 nodes with 128 features and 1600000 edges, against its plain
  reference, over the extended reals:

      messages   = max (x · W_msgᵀ + b_msg) 0
      aggregated = Σ over edges (src → dst) of messages[src], added into row dst
      result     = max (aggregated · W_updᵀ + b_upd) 0 + x.

  The kernel computes the two dense layers in two regions of ten blocks of 10000 rows each (the weights transposed and
  the bias reshaped to one row beforehand, the product a matrix product into a zero accumulator) and the aggregation
  between them by the same gather and scatter-add the reference applies. A row of a dense layer depends only on the same
  row of its input, so the ten blocks of each region are the blocks of the layer of the whole table; the aggregation
  is one function of the message table and the edge list on both sides and is never opened. No law of arithmetic
  beyond reading each operation at an index is used, so the inputs' finiteness is not needed for the values.

  Modules: `Dense` (the layer as a function, and each body's stored value as that function of its blocks),
  `Messages`, `Update` (a region's ten write-backs are the layer of the whole table), `RefLayers` (the reference's
  stages are the same functions), `KernelValue` (the kernel's result read back to the launch arrays), `KernelRun`
  (the kernel's run with its result named).
-/
import proofs.«127159_j7335804142018_1_alg».proof.Defs
import proofs.«127159_j7335804142018_1_alg».proof.Proof.Gen.Kernel
import proofs.«127159_j7335804142018_1_alg».proof.Proof.Gen.Kernel.Skeleton
import proofs.«127159_j7335804142018_1_alg».proof.Proof.Gen.Kernel.Launch
import proofs.«127159_j7335804142018_1_alg».proof.Proof.Gen.Kernel.Points
import proofs.«127159_j7335804142018_1_alg».proof.Proof.Gen.Kernel.Frame
import proofs.«127159_j7335804142018_1_alg».proof.Proof.Gen.KernelIdeal
import proofs.«127159_j7335804142018_1_alg».proof.Proof.Gen.KernelIdeal.Skeleton
import proofs.«127159_j7335804142018_1_alg».proof.Proof.Gen.KernelIdeal.Launch
import proofs.«127159_j7335804142018_1_alg».proof.Proof.Gen.KernelIdeal.Points
import proofs.«127159_j7335804142018_1_alg».proof.Proof.Gen.KernelIdeal.Frame
import proofs.«127159_j7335804142018_1_alg».proof.Proof.Gen.ReferenceIdeal
import proofs.«127159_j7335804142018_1_alg».proof.Proof.Gen.ReferenceIdeal.Run
import proofs.«127159_j7335804142018_1_alg».proof.Proof.Gen.ReferenceIdeal.Read
import proofs.«127159_j7335804142018_1_alg».proof.Proof.Gen.Pre_finite_inputs
import proofs.«127159_j7335804142018_1_alg».proof.Proof.KernelValue
import proofs.«127159_j7335804142018_1_alg».proof.Proof.KernelRun
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the result array at `layer (aggregate (layer x W_msg b_msg) edges) W_upd b_upd + x`
    of the launch arrays: the kernel by its result read back through the two regions and the host stretches, the
    reference by its stages read one operation at a time, from arguments that agree. -/
theorem algebraic : Cert.algebraic_KernelIdeal_ReferenceIdeal := by
  intro m ρ m' ρ' _ hagree
  refine ⟨fun c => Cert.KernelIdeal.Flow.value m c, ?_, ?_⟩
  · exact (θ_run Cert.KernelIdeal.defs _ _).mono
      (fun r h c => ⟨(h c).1.trans (Cert.KernelIdeal.Flow.result m ρ c), (h c).2⟩)
      (Cert.KernelIdeal.Flow.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v26_eq, Cert.ReferenceIdeal.Layers.result_eq,
      (hagree c).1, (hagree c).2.1, (hagree c).2.2.1, (hagree c).2.2.2.1, (hagree c).2.2.2.2.1, (hagree c).2.2.2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
